-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x117 : Shape := ⟨2, ![100000, 117]⟩
abbrev S1600000 : Shape := ⟨1, ![1600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x117 : S_.BroadcastsInDim S100000x117 (![] : Fin 0 → Fin S100000x117.rank)
  reducesTo_S100000x117_S_d0_1 : S100000x117.ReducesTo [0, 1] S_
  h_S_ : 0 < S_.numel
  bcast_S_S117x128 : S_.BroadcastsInDim S117x128 (![] : Fin 0 → Fin S117x128.rank)
  reducesTo_S117x128_S_d0_1 : S117x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S100000x117 .f32) (main_arg1 : IVec S1600000 32) (main_arg2 : IVec S1600000 32) (main_arg3 : FVec F S117x128 .f32) (main_arg4 : FVec F S128 .f32) (main_arg5 : FVec F S3x128x128 .f32) (main_arg6 : FVec F S3x128x128 .f32) (main_arg7 : FVec F S3x128 .f32) : IVec S_ 1 :=
  let main_v0 : FVec F S100000x117 .f32 := Host.absf main_arg0
  let main_cst : FVec F S_ .f32 := constant S_ .f32 0x7F800000#32
  let main_v1 : FVec F S100000x117 .f32 := broadcastInDim S100000x117 ![] bcast_S_S100000x117 main_cst
  let main_v2 : IVec S100000x117 1 := cmpf .olt main_v0 main_v1
  let main_c : IVec S_ 1 := constantI S_ 1 1#1
  let main_v3 : IVec S_ 1 := (fun x v => Host.reduce IntOp.andi x v reducesTo_S100000x117_S_d0_1 h_S_) main_v2 main_c
  let main_v4 : FVec F S117x128 .f32 := Host.absf main_arg3
  let main_cst_0 : FVec F S_ .f32 := constant S_ .f32 0x7F800000#32
  let main_v5 : FVec F S117x128 .f32 := broadcastInDim S117x128 ![] bcast_S_S117x128 main_cst_0
  let main_v6 : IVec S117x128 1 := cmpf .olt main_v4 main_v5
  let main_c_1 : IVec S_ 1 := constantI S_ 1 1#1
  let main_v7 : IVec S_ 1 := (fun x v => Host.reduce IntOp.andi x v reducesTo_S117x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S100000x117 : Shape := ⟨2, ![100000, 117]⟩
abbrev S1600000 : Shape := ⟨1, ![1600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S100000x128 : Shape := ⟨2, ![100000, 128]⟩
abbrev S5000x117 : Shape := ⟨2, ![5000, 117]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S5000x1 : Shape := ⟨2, ![5000, 1]⟩

abbrev nBuf : Space → Nat
  | .hbm => 89
  | .vmem => 39
  | .smem => 0
  | _ => 0

abbrev bufTy : (tb : Table) → Fin (tcTables nBuf tb) → BufTy
  | .hbm, ⟨0, _⟩ => ⟨S100000x117, .f32⟩
  | .hbm, ⟨1, _⟩ => ⟨S1600000, .i32⟩
  | .hbm, ⟨2, _⟩ => ⟨S1600000, .i32⟩
  | .hbm, ⟨3, _⟩ => ⟨S117x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S1x128, .f32⟩
  | .hbm, ⟨9, _⟩ => ⟨S100000x128, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .bf16⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128x128, .f32⟩
  | .hbm, ⟨36, _⟩ => ⟨S128x128, .f32⟩
  | .hbm, ⟨37, _⟩ => ⟨S1x128x128, .f32⟩
  | .hbm, ⟨38, _⟩ => ⟨S128x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S100000x128, .f32⟩
  | .hbm, ⟨43, _⟩ => ⟨S100000x128, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .bf16⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128x128, .f32⟩
  | .hbm, ⟨59, _⟩ => ⟨S128x128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .bf16⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .bf16⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S1x128x128, .f32⟩
  | .hbm, ⟨84, _⟩ => ⟨S128x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S100000x128, .f32⟩
  | .local _ .vmem, ⟨0, _⟩ => ⟨S5000x117, .f32⟩
  | .local _ .vmem, ⟨1, _⟩ => ⟨S5000x117, .f32⟩
  | .local _ .vmem, ⟨2, _⟩ => ⟨S117x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S100000x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_7 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S117x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S128_S1x128 : S128.ShapeCasts S1x128
  inb_S5000x117_S5000x117_0_0 : ∀ a, (![0, 0] : Fin 2 → Nat) a + S5000x117.size a ≤ S5000x117.size a
  h_S5000x117 : 0 < S5000x117.numel
  inb_S117x128_S117x128_0_0 : ∀ a, (![0, 0] : Fin 2 → Nat) a + S117x128.size a ≤ S117x128.size a
  h_S117x128 : 0 < S117x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x117_S117x128_S5000x128_1_0_0_1_n_n_wf : DotDims.WF S5000x117 S117x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x117.size a ≤ S100000x117.size a
  hwx0_0 : ∀ i : grid0.Coords, EltTy.bits .f32 = 32 ∨ (Rect.block (s := S100000x117) S5000x117.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S117x128.size a ≤ S117x128.size a
  hwx0_1 : ∀ i : grid0.Coords, EltTy.bits .f32 = 32 ∨ (Rect.block (s := S117x128) S117x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def dot_S5000x117_S117x128_S5000x128_1_0_0_1_n_n : DotDims S5000x117 S117x128 S5000x128 where
  lhsContracting := [1]
  rhsContracting := [0]
  lhsNonContracting := [0]
  rhsNonContracting := [1]
  lhsBatch := []
  rhsBatch := []
  wf := dot_S5000x117_S117x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x117.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S117x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x117 : Shape := ⟨2, ![100000, 117]⟩
abbrev S1600000 : Shape := ⟨1, ![1600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x117, .f32⟩
  | 1 => ⟨S1600000, .i32⟩
  | 2 => ⟨S1600000, .i32⟩
  | 3 => ⟨S117x128, .f32⟩
  | 4 => ⟨S128, .f32⟩
  | 5 => ⟨S3x128x128, .f32⟩
  | 6 => ⟨S3x128x128, .f32⟩
  | 7 => ⟨S3x128, .f32⟩
  | 8 => ⟨S100000x128, .f32⟩
  | 9 => ⟨S1x128, .f32⟩
  | 10 => ⟨S100000x128, .f32⟩
  | 11 => ⟨S100000x128, .f32⟩
  | 12 => ⟨S100000x128, .f32⟩
  | 13 => ⟨S1x128x128, .f32⟩
  | 14 => ⟨S128x128, .f32⟩
  | 15 => ⟨S1x128x128, .f32⟩
  | 16 => ⟨S128x128, .f32⟩
  | 17 => ⟨S1x128, .f32⟩
  | 18 => ⟨S128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x128x128, .f32⟩
  | 54 => ⟨S128x128, .f32⟩
  | 55 => ⟨S1x128x128, .f32⟩
  | 56 => ⟨S128x128, .f32⟩
  | 57 => ⟨S1x128, .f32⟩
  | 58 => ⟨S128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x128x128, .f32⟩
  | 94 => ⟨S128x128, .f32⟩
  | 95 => ⟨S1x128x128, .f32⟩
  | 96 => ⟨S128x128, .f32⟩
  | 97 => ⟨S1x128, .f32⟩
  | 98 => ⟨S128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S_, .f32⟩
  | 113 => ⟨S1600000, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S1x128, .f32⟩
  | _ => ⟨S100000x117, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | _ => ⟨S100000x117, .f32⟩

abbrev hbmTy (i : Nat) : BufTy := match i / 128 with
  | 0 => hbmTy0_0 i
  | 1 => hbmTy0_1 i
  | _ => ⟨S100000x117, .f32⟩

abbrev bufTy : (tb : Table) → Fin (tcTables nBuf tb) → BufTy
  | .hbm, ⟨i, _⟩ => hbmTy i
  | _, _ => ⟨S100000x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_4 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_cst : Ref sig .tc := ⟨.hbm, 90, rfl⟩
abbrev main_call1_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_10 : Ref sig .tc := ⟨.hbm, 99, rfl⟩
abbrev main_v75 : Ref sig .tc := ⟨.hbm, 100, rfl⟩
abbrev main_v76 : Ref sig .tc := ⟨.hbm, 101, rfl⟩
abbrev main_c_11 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_cst_14 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_call2_cst : Ref sig .tc := ⟨.hbm, 130, rfl⟩
abbrev main_call2_v0 : Ref sig .tc := ⟨.hbm, 131, rfl⟩
abbrev main_v100 : Ref sig .tc := ⟨.hbm, 132, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S100000x117_S117x128_S100000x128_1_0_0_1_n_n_wf : DotDims.WF S100000x117 S117x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def dot_S100000x117_S117x128_S100000x128_1_0_0_1_n_n : DotDims S100000x117 S117x128 S100000x128 where
  lhsContracting := [1]
  rhsContracting := [0]
  lhsNonContracting := [0]
  rhsNonContracting := [1]
  lhsBatch := []
  rhsBatch := []
  wf := dot_S100000x117_S117x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with its result array named.

  @main is four pipelined regions between stretches of host operations.  The buffer contents at each
  boundary are a fold from the launch memory: a host stretch applies its operations in order, a region
  replaces its arrays by what its write-backs leave and keeps every other buffer.  The run below states
  what the final memory holds at the result buffer — the last fold's contents there — beside the eight
  argument arrays, which no operation and no region writes.
-/
import proofs.«152019_j66434554135156_2_alg».proof.Defs
import proofs.«152019_j66434554135156_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents, and the argument arrays end as launched. -/
theorem run_result : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibPlainDot.lean ====
/-
  A matrix product with one contracted axis, read at an index, as a sum over the contracted coordinate.

  For dimension numbers that contract the left operand's columns against the right operand's rows and
  keep rows × columns in that order, the contraction index has one axis; re-indexing the sum by that
  axis' coordinate turns the operand indices into (row, k) and (k, column).
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-- The sum over a one-axis contraction index of the products of two rank-2 operands, at the output index
    (p, q), is the sum over k of left (p, k) times right (k, q) — given the four coordinate facts of the
    dimension numbers (rows from the output's first coordinate, columns from its second, the shared
    coordinate from the contraction index). -/
theorem sum_contr_eq {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (x : (⟨2, ![M, K]⟩ : Shape).Idx → EReal) (w : (⟨2, ![K, N]⟩ : Shape).Idx → EReal) (p : Fin M) (q : Fin N) :
    (∑ c : D.contr.Idx, x (D.lhsIdx (ix2 p q) c) * w (D.rhsIdx (ix2 p q) c)) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.LibPlainDot

end
-- ==== Proof.Spec.lean ====
/-
  The two layers of the network as functions of whole arrays, entry by entry, over the extended reals.

  Encoder: entry (p, q) is tanh of row p of the features times column q of the input weights, plus the
  bias at q.  Aggregation layer: entry (p, q) is the maximum with zero of
  (row p of h) · (column q of W_self) + (row p of the neighbour sums, each entry divided by the clamped
  degree of p) · (column q of W_neigh) + bias at q.  The row count is a parameter: the same function
  describes a block of 5000 rows and the whole array of 100000.
-/
import Idealize.ShloMosaic.PureOps.Ideal
import Idealize.ShloMosaic.Lib.ValueIdx

noncomputable section

open scoped BigOperators

namespace Cert.SageSpec

open Idealize.ShloMosaic Idealize.ShloMosaic.ValueIdx

/-- A rank-2 array of extended reals. -/
abbrev Mat (a b : Nat) : Type := (⟨2, ![a, b]⟩ : Shape).Idx → EReal

/-- The encoder at entry (p, q). -/
def encAt {N : Nat} (x : Mat N 117) (w : Mat 117 128) (b : Mat 1 128) (p : Fin N) (q : Fin 128) : EReal :=
  Ideal.tanh ((∑ k : Fin 117, x (ix2 p k) * w (ix2 k q)) + b (ix2 (0 : Fin 1) q))

/-- The encoder as an array. -/
def enc {N : Nat} (x : Mat N 117) (w : Mat 117 128) (b : Mat 1 128) : Mat N 128 :=
  fun i => encAt x w b (i 0) (i 1)

/-- One aggregation layer at entry (p, q): `ns` the neighbour sums, `dg` the clamped degrees as a column. -/
def sageAt {N : Nat} (x ns : Mat N 128) (dg : Mat N 1) (wse wne : Mat 128 128) (b : Mat 1 128)
    (p : Fin N) (q : Fin 128) : EReal :=
  max (((∑ k : Fin 128, x (ix2 p k) * wse (ix2 k q))
        + (∑ k : Fin 128, Ideal.div (ns (ix2 p k)) (dg (ix2 p (0 : Fin 1))) * wne (ix2 k q)))
       + b (ix2 (0 : Fin 1) q))
    (Ideal.ofBits .f32 0x00000000#32)

/-- One aggregation layer as an array. -/
def sage {N : Nat} (x ns : Mat N 128) (dg : Mat N 1) (wse wne : Mat 128 128) (b : Mat 1 128) : Mat N 128 :=
  fun i => sageAt x ns dg wse wne b (i 0) (i 1)

/-- The encoder at (p, q) depends on the features only through row p. -/
theorem encAt_congr_rows {N M : Nat} (X : Mat N 117) (xb : Mat M 117) (w : Mat 117 128) (b : Mat 1 128)
    (r : Fin N) (p : Fin M) (q : Fin 128) (hx : ∀ k : Fin 117, xb (ix2 p k) = X (ix2 r k)) :
    encAt xb w b p q = encAt X w b r q := by
  unfold encAt
  simp only [hx]

/-- A layer at (p, q) depends on h, the neighbour sums and the degrees only through row p. -/
theorem sageAt_congr_rows {N M : Nat} (X NS : Mat N 128) (DG : Mat N 1) (xb nsb : Mat M 128) (dgb : Mat M 1)
    (wse wne : Mat 128 128) (b : Mat 1 128) (r : Fin N) (p : Fin M) (q : Fin 128)
    (hx : ∀ k : Fin 128, xb (ix2 p k) = X (ix2 r k)) (hns : ∀ k : Fin 128, nsb (ix2 p k) = NS (ix2 r k))
    (hdg : dgb (ix2 p (0 : Fin 1)) = DG (ix2 r (0 : Fin 1))) :
    sageAt xb nsb dgb wse wne b p q = sageAt X NS DG wse wne b r q := by
  unfold sageAt
  simp only [hx, hns, hdg]

end Cert.SageSpec

end
-- ==== Proof.KernelPayload.lean ====
/-
  What one grid point of each kernel body stores, entry by entry.

  The encoder body stores tanh (x · W + b) of its 5000-row block of features: entry (p, q) is the
  encoder's formula over the block.  The aggregation body stores
  max (x · W_self + (ns / deg) · W_neigh + b, 0) of its blocks: entry (p, q) is the layer's formula over the
  block, the degree column broadcast along the row, the bias row broadcast down the column.  A matrix
  product into a zero accumulator is the plain sum over the contracted coordinate.
-/
import proofs.«152019_j66434554135156_2_alg».proof.Proof.Gen.KernelIdeal.Skeleton
import proofs.«152019_j66434554135156_2_alg».proof.Proof.LibPlainDot
import proofs.«152019_j66434554135156_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.SageSpec Cert.LibPlainDot
open Idealize.ShloMosaic Idealize.ShloMosaic.ValueIdx

/-! ## The two products' coordinate facts -/

theorem encDot_l0 (i : S5000x128.Idx) (c : dot_S5000x117_S117x128_S5000x128_1_0_0_1_n_n.contr.Idx) : (dot_S5000x117_S117x128_S5000x128_1_0_0_1_n_n.lhsIdx i c 0).val = (i 0).val := by
  unfold DotDims.lhsIdx
  rw [dif_neg (show ¬(0 : Fin S5000x117.rank) ∈ dot_S5000x117_S117x128_S5000x128_1_0_0_1_n_n.lhsBatch by decide), dif_pos (show (0 : Fin S5000x117.rank) ∈ dot_S5000x117_S117x128_S5000x128_1_0_0_1_n_n.lhsNonContracting by decide)]
  rfl
theorem encDot_r1 (i : S5000x128.Idx) (c : dot_S5000x117_S117x128_S5000x128_1_0_0_1_n_n.contr.Idx) : (dot_S5000x117_S117x128_S5000x128_1_0_0_1_n_n.rhsIdx i c 1).val = (i 1).val := by
  unfold DotDims.rhsIdx
  rw [dif_neg (show ¬(1 : Fin S117x128.rank) ∈ dot_S5000x117_S117x128_S5000x128_1_0_0_1_n_n.rhsBatch by decide), dif_pos (show (1 : Fin S117x128.rank) ∈ dot_S5000x117_S117x128_S5000x128_1_0_0_1_n_n.rhsNonContracting by decide)]
  rfl

theorem sageDot_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem sageDot_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The encoder's product into the zero accumulator, at (p, q). -/
theorem encDot_apply (x : FVec Ideal S5000x117 .f32) (w : FVec Ideal S117x128 .f32) (p : Fin 5000) (q : Fin 128) :
    matmul dot_S5000x117_S117x128_S5000x128_1_0_0_1_n_n none x w (constant S5000x128 .f32 0x00000000#32) (ix2 p q)
      = ∑ k : Fin 117, x (ix2 p k) * w (ix2 k q) :=
  (Ideal.matmul_constant_zero_apply dot_S5000x117_S117x128_S5000x128_1_0_0_1_n_n none x w (ix2 p q)).trans
    (sum_contr_eq dot_S5000x117_S117x128_S5000x128_1_0_0_1_n_n rfl rfl encDot_l0 (fun i c => dot_S5000x117_S117x128_S5000x128_1_0_0_1_n_n.lhsIdx_val_of_single rfl i c)
      (fun i c => dot_S5000x117_S117x128_S5000x128_1_0_0_1_n_n.rhsIdx_val_of_single rfl i c) encDot_r1 x w p q)

/-- A layer's product into the zero accumulator, at (p, q). -/
theorem sageDot_apply (x : FVec Ideal S5000x128 .f32) (w : FVec Ideal S128x128 .f32) (p : Fin 5000) (q : Fin 128) :
    matmul dot_S5000x128_S128x128_S5000x128_1_0_0_1_n_n none x w (constant S5000x128 .f32 0x00000000#32) (ix2 p q)
      = ∑ k : Fin 128, x (ix2 p k) * w (ix2 k q) :=
  (Ideal.matmul_constant_zero_apply dot_S5000x128_S128x128_S5000x128_1_0_0_1_n_n none x w (ix2 p q)).trans
    (sum_contr_eq dot_S5000x128_S128x128_S5000x128_1_0_0_1_n_n rfl rfl sageDot_l0 (fun i c => dot_S5000x128_S128x128_S5000x128_1_0_0_1_n_n.lhsIdx_val_of_single rfl i c)
      (fun i c => dot_S5000x128_S128x128_S5000x128_1_0_0_1_n_n.rhsIdx_val_of_single rfl i c) sageDot_r1 x w p q)

/-! ## The two broadcasts -/

/-- The bias row broadcast down the 5000 rows reads the row at the column. -/
theorem biasRow_apply (b : FVec Ideal S1x128 .f32) (p : Fin 5000) (q : Fin 128) :
    broadcastTo S5000x128 b broadcasts_S1x128_S5000x128 (ix2 p q)
      = b (ix2 (0 : Fin 1) q) := by
  exact broadcastTo_apply b broadcasts_S1x128_S5000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The degree column broadcast along the 128 columns reads the column at the row. -/
theorem degCol_apply (d : FVec Ideal S5000x1 .f32) (p : Fin 5000) (q : Fin 128) :
    broadcastTo S5000x128 d broadcasts_S5000x1_S5000x128 (ix2 p q)
      = d (ix2 p (0 : Fin 1)) := by
  exact broadcastTo_apply d broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else _; rw [if_pos rfl])

/-! ## The stored values -/

/-- The encoder body's stored value at (p, q) is the encoder's formula over its blocks. -/
theorem encPay_apply (x : Vec Ideal S5000x117 .f32) (w : Vec Ideal S117x128 .f32) (b : Vec Ideal S1x128 .f32)
    (p : Fin 5000) (q : Fin 128) :
    k0_pay1 (F := Ideal) x w b (ix2 p q) = encAt x w b p q := by
  unfold k0_pay1 encAt
  simp only [shapeCast_self]
  show Ideal.tanh (matmul (F := Ideal) dot_S5000x117_S117x128_S5000x128_1_0_0_1_n_n none x w (constant S5000x128 .f32 0x00000000#32) (ix2 p q)
      + broadcastTo S5000x128 b broadcasts_S1x128_S5000x128 (ix2 p q)) = _
  rw [encDot_apply, biasRow_apply]

/-- The aggregation body's stored value at (p, q) is the layer's formula over its blocks. -/
theorem sagePay_apply (x ns : Vec Ideal S5000x128 .f32) (dg : Vec Ideal S5000x1 .f32) (wse wne : Vec Ideal S128x128 .f32)
    (b : Vec Ideal S1x128 .f32) (p : Fin 5000) (q : Fin 128) :
    k1_pay1 (F := Ideal) x ns dg wse wne b (ix2 p q) = sageAt x ns dg wse wne b p q := by
  unfold k1_pay1 sageAt
  simp only [shapeCast_self]
  show max ((matmul (F := Ideal) dot_S5000x128_S128x128_S5000x128_1_0_0_1_n_n none x wse (constant S5000x128 .f32 0x00000000#32) (ix2 p q)
        + matmul (F := Ideal) dot_S5000x128_S128x128_S5000x128_1_0_0_1_n_n none (divf ns (broadcastTo S5000x128 dg broadcasts_S5000x1_S5000x128)) wne
            (constant S5000x128 .f32 0x00000000#32) (ix2 p q))
      + broadcastTo S5000x128 b broadcasts_S1x128_S5000x128 (ix2 p q))
      (Ideal.ofBits .f32 0x00000000#32) = _
  rw [sageDot_apply, sageDot_apply, biasRow_apply]
  refine congrArg (fun s => max ((_ + s) + _) _) (Finset.sum_congr rfl fun k _ => ?_)
  show Ideal.div (ns (ix2 p k)) (broadcastTo S5000x128 dg broadcasts_S5000x1_S5000x128 (ix2 p k)) * _ = _
  rw [degCol_apply]

/-- The three aggregation bodies are one text. -/
theorem pay2_eq : @k2_pay1 = @k1_pay1 := rfl
theorem pay3_eq : @k3_pay1 = @k1_pay1 := rfl

end Cert.KernelIdeal.Payload

end
-- ==== Proof.KernelRegion0.lean ====
/-
  Region 0 (the encoder): from the blocks each grid point writes back to the whole output array.

  The grid has 20 points; point t reads rows 5000 t … 5000 t + 4999 of the features, the whole input weights
  and the bias row, and writes the same rows of the output: tanh of the rows times the weights plus the bias.
  The 20 write-backs together are the encoder of the whole arrays.
-/
import proofs.«152019_j66434554135156_2_alg».proof.Proof.Gen.KernelIdeal.Frame
import proofs.«152019_j66434554135156_2_alg».proof.Proof.KernelPayload
import proofs.«152019_j66434554135156_2_alg».proof.Proof.Spec
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.SageSpec Cert.KernelIdeal.Payload
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the encoder -/

/-- The printed index maps over the grid's 20 points: the feature rows move with the output's block row,
    the weights and the bias row stay at block (0, 0). -/
theorem idx0 : ∀ t : Fin cfg0.N,
    win0_0.index t (0 : Fin 2) = win0_3.index t (0 : Fin 2) ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (1 : Fin 2) = 0 ∧ win0_3.index t (0 : Fin 2) < 20 :=
  (by decide +kernel : ∀ t : Fin grid0.N, _)

/-- Every block row is some point's. -/
theorem onto0 : ∀ q0 : Fin 20, ∃ t : Fin cfg0.N, win0_3.index t = ![q0.val, 0] :=
  (by decide +kernel : ∀ q0 : Fin 20, ∃ t : Fin grid0.N, win0_3.index t = ![q0.val, 0])

set_option maxHeartbeats 1600000 in
/-- What point t writes back is block t of the encoder of the region's entry arrays. -/
theorem flushed0 (c : Dev nD) (t : Fin cfg0.N) :
    (dat0 (F := Ideal) V c).flushed 3 t = ((cfg0.win 3).blk t).view.read (Elt Ideal)
      (enc (N := 100000) (V c main_arg0) (V c main_arg3) (V c main_v0)) := by
  show (cfg0.win 3).cut (grid0.coords t) ((dat0 V c).after 3 t) = _
  rw [after0_3]
  unfold out0_3
  rw [View.canon_unit_zero hz]
  simp only [View.ld_unit_zero (S := S5000x117) hz, View.ld_unit_zero (S := S117x128) hz, View.ld_unit_zero (S := S1x128) hz]
  obtain ⟨e00, e01, e10, e11, e20, e21, e31, e30⟩ := idx0 t
  funext j
  obtain ⟨p, q, rfl⟩ : ∃ (p : Fin 5000) (q : Fin 128), j = ix2 p q := ⟨j 0, j 1, eq_ix2 j⟩
  have hp : p.val < 5000 := p.isLt
  have hq : q.val < 128 := q.isLt
  show k0_pay1 (F := Ideal) (iblk0 V c 0 t) (iblk0 V c 1 t) (iblk0 V c 2 t) (ix2 p q)
    = enc (N := 100000) (V c main_arg0) (V c main_arg3) (V c main_v0) (((cfg0.win 3).blk t).view.emb (ix2 p q))
  refine (encPay_apply (iblk0 V c 0 t) (iblk0 V c 1 t) (iblk0 V c 2 t) p q).trans ?_
  have hemb : ((cfg0.win 3).blk t).view.emb (ix2 p q) = ix2 (⟨win0_3.index t (0 : Fin 2) * 5000 + p.val, by omega⟩ : Fin 100000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  rw [hemb]
  have hw1 : iblk0 V c 1 t = V c main_arg3 := by
    funext y
    show V c main_arg3 (((cfg0.win 1).blk t).view.emb y) = V c main_arg3 y
    refine congrArg (V c main_arg3) (funext fun a => Fin.ext ?_)
    match a with
    | ⟨0, _⟩ => show win0_1.index t (0 : Fin 2) * 117 + 1 * (y 0).val = (y 0).val; omega
    | ⟨1, _⟩ => show win0_1.index t (1 : Fin 2) * 128 + 1 * (y 1).val = (y 1).val; omega
  have hw2 : iblk0 V c 2 t = V c main_v0 := by
    funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [hw1, hw2]
  refine encAt_congr_rows _ _ _ _ _ p q (fun k => ?_)
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = win0_3.index t (0 : Fin 2) * 5000 + p.val; omega
  | ⟨1, _⟩ => show win0_0.index t (1 : Fin 2) * 117 + 1 * k.val = k.val; omega

/-- An index of the output array is in point t's block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- The 20 blocks of 5000 rows cover the array: row r is in block r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After region 0 its output array is the encoder of the region's entry arrays. -/
theorem final0 (c : Dev nD) : (dat0 (F := Ideal) V c).arrAt 3 cfg0.N
    = enc (N := 100000) (V c main_arg0) (V c main_arg3) (V c main_v0) :=
  (dat0 (F := Ideal) V c).arrAt_eq_of_cover 3 _ (fun t _ => flushed0 V c t) cover0

end Cert.KernelIdeal.Region0

end
-- ==== Proof.KernelRegion1.lean ====
/-
  Region 1 (first aggregation layer): from the blocks each grid point writes back to the whole output array.

  The grid has 20 points; point t reads rows 5000 t … 5000 t + 4999 of h, of the neighbour sums and of the
  degree column, the whole weight matrices and the bias row, and writes the same rows of the output.  What
  it writes is the layer's formula of those rows, so the 20 write-backs together are the layer of the whole
  arrays.
-/
import proofs.«152019_j66434554135156_2_alg».proof.Proof.Gen.KernelIdeal.Frame
import proofs.«152019_j66434554135156_2_alg».proof.Proof.KernelPayload
import proofs.«152019_j66434554135156_2_alg».proof.Proof.Spec
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.SageSpec Cert.KernelIdeal.Payload
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 1: one aggregation layer -/

/-- The printed index maps over the grid's 20 points: the three row-blocked inputs move with the output's
    block row, the weights and the bias stay at block (0, 0). -/
theorem idx1 : ∀ t : Fin cfg1.N,
    win1_0.index t (0 : Fin 2) = win1_6.index t (0 : Fin 2) ∧ win1_0.index t (1 : Fin 2) = 0
  ∧ win1_1.index t (0 : Fin 2) = win1_6.index t (0 : Fin 2) ∧ win1_1.index t (1 : Fin 2) = 0
  ∧ win1_2.index t (0 : Fin 2) = win1_6.index t (0 : Fin 2) ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (1 : Fin 2) = 0 ∧ win1_6.index t (0 : Fin 2) < 20 :=
  (by decide +kernel : ∀ t : Fin grid1.N, _)

/-- Every block row is some point's. -/
theorem onto1 : ∀ q0 : Fin 20, ∃ t : Fin cfg1.N, win1_6.index t = ![q0.val, 0] :=
  (by decide +kernel : ∀ q0 : Fin 20, ∃ t : Fin grid1.N, win1_6.index t = ![q0.val, 0])

set_option maxHeartbeats 1600000 in
/-- What point t writes back is block t of the layer of the region's entry arrays. -/
theorem flushed1 (c : Dev nD) (t : Fin cfg1.N) :
    (dat1 (F := Ideal) V c).flushed 6 t = ((cfg1.win 6).blk t).view.read (Elt Ideal)
      (sage (N := 100000) (V c main_v1) (V c main_v20) (V c main_v8) (V c main_v22) (V c main_v24) (V c main_v27)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e61, e60⟩ := idx1 t
  funext j
  obtain ⟨p, q, rfl⟩ : ∃ (p : Fin 5000) (q : Fin 128), j = ix2 p q := ⟨j 0, j 1, eq_ix2 j⟩
  have hp : p.val < 5000 := p.isLt
  have hq : q.val < 128 := q.isLt
  show k1_pay1 (F := Ideal) (iblk1 V c 0 t) (iblk1 V c 1 t) (iblk1 V c 2 t) (iblk1 V c 3 t) (iblk1 V c 4 t) (iblk1 V c 5 t) (ix2 p q)
    = sage (N := 100000) (V c main_v1) (V c main_v20) (V c main_v8) (V c main_v22) (V c main_v24) (V c main_v27) (((cfg1.win 6).blk t).view.emb (ix2 p q))
  refine (sagePay_apply (iblk1 V c 0 t) (iblk1 V c 1 t) (iblk1 V c 2 t) (iblk1 V c 3 t) (iblk1 V c 4 t) (iblk1 V c 5 t) p q).trans ?_
  have hemb : ((cfg1.win 6).blk t).view.emb (ix2 p q) = ix2 (⟨win1_6.index t (0 : Fin 2) * 5000 + p.val, by omega⟩ : Fin 100000) q := by
    funext a; apply Fin.ext
    match a with
    | ⟨0, _⟩ => show win1_6.index t (0 : Fin 2) * 5000 + 1 * p.val = win1_6.index t (0 : Fin 2) * 5000 + p.val; omega
    | ⟨1, _⟩ => show win1_6.index t (1 : Fin 2) * 128 + 1 * q.val = q.val; omega
  rw [hemb]
  have hw3 : iblk1 V c 3 t = V c main_v22 := by
    funext y
    show V c main_v22 (((cfg1.win 3).blk t).view.emb y) = V c main_v22 y
    refine congrArg (V c main_v22) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_v24 := by
    funext y
    show V c main_v24 (((cfg1.win 4).blk t).view.emb y) = V c main_v24 y
    refine congrArg (V c main_v24) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hw5 : iblk1 V c 5 t = V c main_v27 := by
    funext y
    show V c main_v27 (((cfg1.win 5).blk t).view.emb y) = V c main_v27 y
    refine congrArg (V c main_v27) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [hw3, hw4, hw5]
  refine sageAt_congr_rows _ _ _ _ _ _ _ _ _ _ p q (fun k => ?_) (fun k => ?_) ?_
  · show V c main_v1 (((cfg1.win 0).blk t).view.emb (ix2 p k)) = _
    refine congrArg (V c main_v1) (funext fun a => Fin.ext ?_)
    match a with
    | ⟨0, _⟩ => show win1_0.index t (0 : Fin 2) * 5000 + 1 * p.val = win1_6.index t (0 : Fin 2) * 5000 + p.val; omega
    | ⟨1, _⟩ => show win1_0.index t (1 : Fin 2) * 128 + 1 * k.val = k.val; omega
  · show V c main_v20 (((cfg1.win 1).blk t).view.emb (ix2 p k)) = _
    refine congrArg (V c main_v20) (funext fun a => Fin.ext ?_)
    match a with
    | ⟨0, _⟩ => show win1_1.index t (0 : Fin 2) * 5000 + 1 * p.val = win1_6.index t (0 : Fin 2) * 5000 + p.val; omega
    | ⟨1, _⟩ => show win1_1.index t (1 : Fin 2) * 128 + 1 * k.val = k.val; omega
  · show V c main_v8 (((cfg1.win 2).blk t).view.emb (ix2 p (0 : Fin 1))) = _
    refine congrArg (V c main_v8) (funext fun a => Fin.ext ?_)
    match a with
    | ⟨0, _⟩ => show win1_2.index t (0 : Fin 2) * 5000 + 1 * p.val = win1_6.index t (0 : Fin 2) * 5000 + p.val; omega
    | ⟨1, _⟩ => show win1_2.index t (1 : Fin 2) * 1 + 1 * 0 = 0; omega

/-- An index of the output array is in point t's block iff each coordinate is in the block's range. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v28).slice (win1_6.rect t)).set ↔ _
  rw [View.set_slice_whole, Rect.mem_set_unit]
  exact Iff.rfl

/-- The 20 blocks of 5000 rows cover the array: row r is in block r / 5000. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After region 1 its output array is the layer of the region's entry arrays. -/
theorem final1 (c : Dev nD) : (dat1 (F := Ideal) V c).arrAt 6 cfg1.N
    = sage (N := 100000) (V c main_v1) (V c main_v20) (V c main_v8) (V c main_v22) (V c main_v24) (V c main_v27) :=
  (dat1 (F := Ideal) V c).arrAt_eq_of_cover 6 _ (fun t _ => flushed1 V c t) cover1

end Cert.KernelIdeal.Region1

end
-- ==== Proof.KernelRegion2.lean ====
/-
  Region 2 (second aggregation layer): from the blocks each grid point writes back to the whole output array.

  The grid has 20 points; point t reads rows 5000 t … 5000 t + 4999 of h, of the neighbour sums and of the
  degree column, the whole weight matrices and the bias row, and writes the same rows of the output.  What
  it writes is the layer's formula of those rows, so the 20 write-backs together are the layer of the whole
  arrays.
-/
import proofs.«152019_j66434554135156_2_alg».proof.Proof.Gen.KernelIdeal.Frame
import proofs.«152019_j66434554135156_2_alg».proof.Proof.KernelPayload
import proofs.«152019_j66434554135156_2_alg».proof.Proof.Spec
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Cert.SageSpec Cert.KernelIdeal.Payload
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 2: one aggregation layer -/

/-- The printed index maps over the grid's 20 points: the three row-blocked inputs move with the output's
    block row, the weights and the bias stay at block (0, 0). -/
theorem idx2 : ∀ t : Fin cfg2.N,
    win2_0.index t (0 : Fin 2) = win2_6.index t (0 : Fin 2) ∧ win2_0.index t (1 : Fin 2) = 0
  ∧ win2_1.index t (0 : Fin 2) = win2_6.index t (0 : Fin 2) ∧ win2_1.index t (1 : Fin 2) = 0
  ∧ win2_2.index t (0 : Fin 2) = win2_6.index t (0 : Fin 2) ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (1 : Fin 2) = 0 ∧ win2_6.index t (0 : Fin 2) < 20 :=
  (by decide +kernel : ∀ t : Fin grid2.N, _)

/-- Every block row is some point's. -/
theorem onto2 : ∀ q0 : Fin 20, ∃ t : Fin cfg2.N, win2_6.index t = ![q0.val, 0] :=
  (by decide +kernel : ∀ q0 : Fin 20, ∃ t : Fin grid2.N, win2_6.index t = ![q0.val, 0])

set_option maxHeartbeats 1600000 in
/-- What point t writes back is block t of the layer of the region's entry arrays. -/
theorem flushed2 (c : Dev nD) (t : Fin cfg2.N) :
    (dat2 (F := Ideal) V c).flushed 6 t = ((cfg2.win 6).blk t).view.read (Elt Ideal)
      (sage (N := 100000) (V c main_v28) (V c main_v40) (V c main_v8) (V c main_v42) (V c main_v44) (V c main_v47)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e61, e60⟩ := idx2 t
  funext j
  obtain ⟨p, q, rfl⟩ : ∃ (p : Fin 5000) (q : Fin 128), j = ix2 p q := ⟨j 0, j 1, eq_ix2 j⟩
  have hp : p.val < 5000 := p.isLt
  have hq : q.val < 128 := q.isLt
  show k2_pay1 (F := Ideal) (iblk2 V c 0 t) (iblk2 V c 1 t) (iblk2 V c 2 t) (iblk2 V c 3 t) (iblk2 V c 4 t) (iblk2 V c 5 t) (ix2 p q)
    = sage (N := 100000) (V c main_v28) (V c main_v40) (V c main_v8) (V c main_v42) (V c main_v44) (V c main_v47) (((cfg2.win 6).blk t).view.emb (ix2 p q))
  refine (sagePay_apply (iblk2 V c 0 t) (iblk2 V c 1 t) (iblk2 V c 2 t) (iblk2 V c 3 t) (iblk2 V c 4 t) (iblk2 V c 5 t) p q).trans ?_
  have hemb : ((cfg2.win 6).blk t).view.emb (ix2 p q) = ix2 (⟨win2_6.index t (0 : Fin 2) * 5000 + p.val, by omega⟩ : Fin 100000) q := by
    funext a; apply Fin.ext
    match a with
    | ⟨0, _⟩ => show win2_6.index t (0 : Fin 2) * 5000 + 1 * p.val = win2_6.index t (0 : Fin 2) * 5000 + p.val; omega
    | ⟨1, _⟩ => show win2_6.index t (1 : Fin 2) * 128 + 1 * q.val = q.val; omega
  rw [hemb]
  have hw3 : iblk2 V c 3 t = V c main_v42 := by
    funext y
    show V c main_v42 (((cfg2.win 3).blk t).view.emb y) = V c main_v42 y
    refine congrArg (V c main_v42) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have hw4 : iblk2 V c 4 t = V c main_v44 := by
    funext y
    show V c main_v44 (((cfg2.win 4).blk t).view.emb y) = V c main_v44 y
    refine congrArg (V c main_v44) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hw5 : iblk2 V c 5 t = V c main_v47 := by
    funext y
    show V c main_v47 (((cfg2.win 5).blk t).view.emb y) = V c main_v47 y
    refine congrArg (V c main_v47) (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  rw [hw3, hw4, hw5]
  refine sageAt_congr_rows _ _ _ _ _ _ _ _ _ _ p q (fun k => ?_) (fun k => ?_) ?_
  · show V c main_v28 (((cfg2.win 0).blk t).view.emb (ix2 p k)) = _
    refine congrArg (V c main_v28) (funext fun a => Fin.ext ?_)
    match a with
    | ⟨0, _⟩ => show win2_0.index t (0 : Fin 2) * 5000 + 1 * p.val = win2_6.index t (0 : Fin 2) * 5000 + p.val; omega
    | ⟨1, _⟩ => show win2_0.index t (1 : Fin 2) * 128 + 1 * k.val = k.val; omega
  · show V c main_v40 (((cfg2.win 1).blk t).view.emb (ix2 p k)) = _
    refine congrArg (V c main_v40) (funext fun a => Fin.ext ?_)
    match a with
    | ⟨0, _⟩ => show win2_1.index t (0 : Fin 2) * 5000 + 1 * p.val = win2_6.index t (0 : Fin 2) * 5000 + p.val; omega
    | ⟨1, _⟩ => show win2_1.index t (1 : Fin 2) * 128 + 1 * k.val = k.val; omega
  · show V c main_v8 (((cfg2.win 2).blk t).view.emb (ix2 p (0 : Fin 1))) = _
    refine congrArg (V c main_v8) (funext fun a => Fin.ext ?_)
    match a with
    | ⟨0, _⟩ => show win2_2.index t (0 : Fin 2) * 5000 + 1 * p.val = win2_6.index t (0 : Fin 2) * 5000 + p.val; omega
    | ⟨1, _⟩ => show win2_2.index t (1 : Fin 2) * 1 + 1 * 0 = 0; omega

/-- An index of the output array is in point t's block iff each coordinate is in the block's range. -/
theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v48).slice (win2_6.rect t)).set ↔ _
  rw [View.set_slice_whole, Rect.mem_set_unit]
  exact Iff.rfl

/-- The 20 blocks of 5000 rows cover the array: row r is in block r / 5000. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After region 2 its output array is the layer of the region's entry arrays. -/
theorem final2 (c : Dev nD) : (dat2 (F := Ideal) V c).arrAt 6 cfg2.N
    = sage (N := 100000) (V c main_v28) (V c main_v40) (V c main_v8) (V c main_v42) (V c main_v44) (V c main_v47) :=
  (dat2 (F := Ideal) V c).arrAt_eq_of_cover 6 _ (fun t _ => flushed2 V c t) cover2

end Cert.KernelIdeal.Region2

end
-- ==== Proof.KernelRegion3.lean ====
/-
  Region 3 (third aggregation layer): from the blocks each grid point writes back to the whole output array.

  The grid has 20 points; point t reads rows 5000 t … 5000 t + 4999 of h, of the neighbour sums and of the
  degree column, the whole weight matrices and the bias row, and writes the same rows of the output.  What
  it writes is the layer's formula of those rows, so the 20 write-backs together are the layer of the whole
  arrays.
-/
import proofs.«152019_j66434554135156_2_alg».proof.Proof.Gen.KernelIdeal.Frame
import proofs.«152019_j66434554135156_2_alg».proof.Proof.KernelPayload
import proofs.«152019_j66434554135156_2_alg».proof.Proof.Spec
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Cert.SageSpec Cert.KernelIdeal.Payload
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 3: one aggregation layer -/

/-- The printed index maps over the grid's 20 points: the three row-blocked inputs move with the output's
    block row, the weights and the bias stay at block (0, 0). -/
theorem idx3 : ∀ t : Fin cfg3.N,
    win3_0.index t (0 : Fin 2) = win3_6.index t (0 : Fin 2) ∧ win3_0.index t (1 : Fin 2) = 0
  ∧ win3_1.index t (0 : Fin 2) = win3_6.index t (0 : Fin 2) ∧ win3_1.index t (1 : Fin 2) = 0
  ∧ win3_2.index t (0 : Fin 2) = win3_6.index t (0 : Fin 2) ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = 0 ∧ win3_5.index t (1 : Fin 2) = 0
  ∧ win3_6.index t (1 : Fin 2) = 0 ∧ win3_6.index t (0 : Fin 2) < 20 :=
  (by decide +kernel : ∀ t : Fin grid3.N, _)

/-- Every block row is some point's. -/
theorem onto3 : ∀ q0 : Fin 20, ∃ t : Fin cfg3.N, win3_6.index t = ![q0.val, 0] :=
  (by decide +kernel : ∀ q0 : Fin 20, ∃ t : Fin grid3.N, win3_6.index t = ![q0.val, 0])

set_option maxHeartbeats 1600000 in
/-- What point t writes back is block t of the layer of the region's entry arrays. -/
theorem flushed3 (c : Dev nD) (t : Fin cfg3.N) :
    (dat3 (F := Ideal) V c).flushed 6 t = ((cfg3.win 6).blk t).view.read (Elt Ideal)
      (sage (N := 100000) (V c main_v48) (V c main_v60) (V c main_v8) (V c main_v62) (V c main_v64) (V c main_v67)) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e61, e60⟩ := idx3 t
  funext j
  obtain ⟨p, q, rfl⟩ : ∃ (p : Fin 5000) (q : Fin 128), j = ix2 p q := ⟨j 0, j 1, eq_ix2 j⟩
  have hp : p.val < 5000 := p.isLt
  have hq : q.val < 128 := q.isLt
  show k3_pay1 (F := Ideal) (iblk3 V c 0 t) (iblk3 V c 1 t) (iblk3 V c 2 t) (iblk3 V c 3 t) (iblk3 V c 4 t) (iblk3 V c 5 t) (ix2 p q)
    = sage (N := 100000) (V c main_v48) (V c main_v60) (V c main_v8) (V c main_v62) (V c main_v64) (V c main_v67) (((cfg3.win 6).blk t).view.emb (ix2 p q))
  refine (sagePay_apply (iblk3 V c 0 t) (iblk3 V c 1 t) (iblk3 V c 2 t) (iblk3 V c 3 t) (iblk3 V c 4 t) (iblk3 V c 5 t) p q).trans ?_
  have hemb : ((cfg3.win 6).blk t).view.emb (ix2 p q) = ix2 (⟨win3_6.index t (0 : Fin 2) * 5000 + p.val, by omega⟩ : Fin 100000) q := by
    funext a; apply Fin.ext
    match a with
    | ⟨0, _⟩ => show win3_6.index t (0 : Fin 2) * 5000 + 1 * p.val = win3_6.index t (0 : Fin 2) * 5000 + p.val; omega
    | ⟨1, _⟩ => show win3_6.index t (1 : Fin 2) * 128 + 1 * q.val = q.val; omega
  rw [hemb]
  have hw3 : iblk3 V c 3 t = V c main_v62 := by
    funext y
    show V c main_v62 (((cfg3.win 3).blk t).view.emb y) = V c main_v62 y
    refine congrArg (V c main_v62) (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  have hw4 : iblk3 V c 4 t = V c main_v64 := by
    funext y
    show V c main_v64 (((cfg3.win 4).blk t).view.emb y) = V c main_v64 y
    refine congrArg (V c main_v64) (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hw5 : iblk3 V c 5 t = V c main_v67 := by
    funext y
    show V c main_v67 (((cfg3.win 5).blk t).view.emb y) = V c main_v67 y
    refine congrArg (V c main_v67) (funext fun a => Fin.ext ?_)
    match a with
    | ⟨0, _⟩ => show win3_5.index t (0 : Fin 2) * 1 + 1 * (y 0).val = (y 0).val; omega
    | ⟨1, _⟩ => show win3_5.index t (1 : Fin 2) * 128 + 1 * (y 1).val = (y 1).val; omega
  rw [hw3, hw4, hw5]
  refine sageAt_congr_rows _ _ _ _ _ _ _ _ _ _ p q (fun k => ?_) (fun k => ?_) ?_
  · show V c main_v48 (((cfg3.win 0).blk t).view.emb (ix2 p k)) = _
    refine congrArg (V c main_v48) (funext fun a => Fin.ext ?_)
    match a with
    | ⟨0, _⟩ => show win3_0.index t (0 : Fin 2) * 5000 + 1 * p.val = win3_6.index t (0 : Fin 2) * 5000 + p.val; omega
    | ⟨1, _⟩ => show win3_0.index t (1 : Fin 2) * 128 + 1 * k.val = k.val; omega
  · show V c main_v60 (((cfg3.win 1).blk t).view.emb (ix2 p k)) = _
    refine congrArg (V c main_v60) (funext fun a => Fin.ext ?_)
    match a with
    | ⟨0, _⟩ => show win3_1.index t (0 : Fin 2) * 5000 + 1 * p.val = win3_6.index t (0 : Fin 2) * 5000 + p.val; omega
    | ⟨1, _⟩ => show win3_1.index t (1 : Fin 2) * 128 + 1 * k.val = k.val; omega
  · show V c main_v8 (((cfg3.win 2).blk t).view.emb (ix2 p (0 : Fin 1))) = _
    refine congrArg (V c main_v8) (funext fun a => Fin.ext ?_)
    match a with
    | ⟨0, _⟩ => show win3_2.index t (0 : Fin 2) * 5000 + 1 * p.val = win3_6.index t (0 : Fin 2) * 5000 + p.val; omega
    | ⟨1, _⟩ => show win3_2.index t (1 : Fin 2) * 1 + 1 * 0 = 0; omega

/-- An index of the output array is in point t's block iff each coordinate is in the block's range. -/
theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v68).slice (win3_6.rect t)).set ↔ _
  rw [View.set_slice_whole, Rect.mem_set_unit]
  exact Iff.rfl

/-- The 20 blocks of 5000 rows cover the array: row r is in block r / 5000. -/
theorem cover3 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := onto3 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- After region 3 its output array is the layer of the region's entry arrays. -/
theorem final3 (c : Dev nD) : (dat3 (F := Ideal) V c).arrAt 6 cfg3.N
    = sage (N := 100000) (V c main_v48) (V c main_v60) (V c main_v8) (V c main_v62) (V c main_v64) (V c main_v67) :=
  (dat3 (F := Ideal) V c).arrAt_eq_of_cover 6 _ (fun t _ => flushed3 V c t) cover3

end Cert.KernelIdeal.Region3

end
-- ==== Proof.RefLayers.lean ====
/-
  The reference's two layers, written with the host's whole-array operations, are the entry-by-entry
  functions of the specification.

  Encoder: tanh (dot_general (x, W) + bias row broadcast down the rows).  Aggregation layer:
  maximum (dot_general (h, W_self) + dot_general (ns / (degree column broadcast along the rows), W_neigh)
  + bias row broadcast down the rows, 0).  A dot_general with one contracted axis is the plain sum over
  that axis; the broadcasts read the row at the column and the column at the row.
-/
import proofs.«152019_j66434554135156_2_alg».proof.ReferenceIdeal
import proofs.«152019_j66434554135156_2_alg».proof.Proof.Gen.ReferenceIdeal
import proofs.«152019_j66434554135156_2_alg».proof.Proof.LibPlainDot
import proofs.«152019_j66434554135156_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Layers

open Cert.ReferenceIdeal Cert.ReferenceIdeal.Facts₀ Cert.SageSpec Cert.LibPlainDot
open Idealize.ShloMosaic Idealize.ShloMosaic.ValueIdx

/-! ## The two products' coordinate facts -/

theorem encDot_l0 (i : S100000x128.Idx) (c : dot_S100000x117_S117x128_S100000x128_1_0_0_1_n_n.contr.Idx) : (dot_S100000x117_S117x128_S100000x128_1_0_0_1_n_n.lhsIdx i c 0).val = (i 0).val := by
  unfold DotDims.lhsIdx
  rw [dif_neg (show ¬(0 : Fin S100000x117.rank) ∈ dot_S100000x117_S117x128_S100000x128_1_0_0_1_n_n.lhsBatch by decide), dif_pos (show (0 : Fin S100000x117.rank) ∈ dot_S100000x117_S117x128_S100000x128_1_0_0_1_n_n.lhsNonContracting by decide)]
  rfl
theorem encDot_r1 (i : S100000x128.Idx) (c : dot_S100000x117_S117x128_S100000x128_1_0_0_1_n_n.contr.Idx) : (dot_S100000x117_S117x128_S100000x128_1_0_0_1_n_n.rhsIdx i c 1).val = (i 1).val := by
  unfold DotDims.rhsIdx
  rw [dif_neg (show ¬(1 : Fin S117x128.rank) ∈ dot_S100000x117_S117x128_S100000x128_1_0_0_1_n_n.rhsBatch by decide), dif_pos (show (1 : Fin S117x128.rank) ∈ dot_S100000x117_S117x128_S100000x128_1_0_0_1_n_n.rhsNonContracting by decide)]
  rfl

theorem sageDot_l0 (i : S100000x128.Idx) (c : dot_S100000x128_S128x128_S100000x128_1_0_0_1_n_n.contr.Idx) : (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem sageDot_r1 (i : S100000x128.Idx) (c : dot_S100000x128_S128x128_S100000x128_1_0_0_1_n_n.contr.Idx) : (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The encoder's dot_general at (p, q). -/
theorem encDot_apply (x : FVec Ideal S100000x117 .f32) (w : FVec Ideal S117x128 .f32) (p : Fin 100000) (q : Fin 128) :
    Host.dotGeneral (F := Ideal) dot_S100000x117_S117x128_S100000x128_1_0_0_1_n_n none x w (ix2 p q) = ∑ k : Fin 117, x (ix2 p k) * w (ix2 k q) := by
  simp only [Host.dotGeneral]
  rw [Ideal.dotGeneral_apply]
  exact sum_contr_eq dot_S100000x117_S117x128_S100000x128_1_0_0_1_n_n rfl rfl encDot_l0 (fun i c => dot_S100000x117_S117x128_S100000x128_1_0_0_1_n_n.lhsIdx_val_of_single rfl i c)
      (fun i c => dot_S100000x117_S117x128_S100000x128_1_0_0_1_n_n.rhsIdx_val_of_single rfl i c) encDot_r1 x w p q

/-- A layer's dot_general at (p, q). -/
theorem sageDot_apply (x : FVec Ideal S100000x128 .f32) (w : FVec Ideal S128x128 .f32) (p : Fin 100000) (q : Fin 128) :
    Host.dotGeneral (F := Ideal) dot_S100000x128_S128x128_S100000x128_1_0_0_1_n_n none x w (ix2 p q) = ∑ k : Fin 128, x (ix2 p k) * w (ix2 k q) := by
  simp only [Host.dotGeneral]
  rw [Ideal.dotGeneral_apply]
  exact sum_contr_eq dot_S100000x128_S128x128_S100000x128_1_0_0_1_n_n rfl rfl sageDot_l0 (fun i c => dot_S100000x128_S128x128_S100000x128_1_0_0_1_n_n.lhsIdx_val_of_single rfl i c)
      (fun i c => dot_S100000x128_S128x128_S100000x128_1_0_0_1_n_n.rhsIdx_val_of_single rfl i c) sageDot_r1 x w p q

/-! ## The broadcasts -/

/-- The bias row broadcast down the 100000 rows reads the row at the column. -/
theorem biasRow_apply (b : FVec Ideal S1x128 .f32) (p : Fin 100000) (q : Fin 128) :
    broadcastInDim S100000x128 ![0, 1] bcast_S1x128_S100000x128_0_1 b (ix2 p q) = b (ix2 (0 : Fin 1) q) :=
  broadcastInDim_apply _ bcast_S1x128_S100000x128_0_1 b (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The degree column broadcast along the 128 columns reads the column at the row. -/
theorem degCol_apply (d : FVec Ideal S100000x1 .f32) (p : Fin 100000) (q : Fin 128) :
    broadcastInDim S100000x128 ![0, 1] bcast_S100000x1_S100000x128_0_1 d (ix2 p q) = d (ix2 p (0 : Fin 1)) :=
  broadcastInDim_apply _ bcast_S100000x1_S100000x128_0_1 d (ix2 p q) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else _; rw [if_pos rfl])

/-- The scalar zero broadcast to the array is zero everywhere. -/
theorem zero_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 (constant (F := Ideal) S_ .f32 0x00000000#32) i (fun a => a.elim0) (fun a => a.elim0)

/-! ## The layers -/

/-- The host's encoder is the specification's. -/
theorem hostEnc_eq (x : FVec Ideal S100000x117 .f32) (w : FVec Ideal S117x128 .f32) (b : FVec Ideal S1x128 .f32) :
    Host.tanh (addf (Host.dotGeneral (F := Ideal) dot_S100000x117_S117x128_S100000x128_1_0_0_1_n_n none x w)
      (broadcastInDim S100000x128 ![0, 1] bcast_S1x128_S100000x128_0_1 b)) = enc x w b := by
  funext i
  obtain ⟨p, q, rfl⟩ : ∃ (p : Fin 100000) (q : Fin 128), i = ix2 p q := ⟨i 0, i 1, eq_ix2 i⟩
  show Ideal.tanh (Host.dotGeneral (F := Ideal) dot_S100000x117_S117x128_S100000x128_1_0_0_1_n_n none x w (ix2 p q)
      + broadcastInDim S100000x128 ![0, 1] bcast_S1x128_S100000x128_0_1 b (ix2 p q)) = encAt x w b p q
  rw [encDot_apply, biasRow_apply]
  rfl

/-- The host's aggregation layer is the specification's. -/
theorem hostLayer_eq (h ns : FVec Ideal S100000x128 .f32) (dg : FVec Ideal S100000x1 .f32)
    (wse wne : FVec Ideal S128x128 .f32) (b : FVec Ideal S1x128 .f32) :
    maximumf (addf (addf (Host.dotGeneral (F := Ideal) dot_S100000x128_S128x128_S100000x128_1_0_0_1_n_n none h wse)
        (Host.dotGeneral (F := Ideal) dot_S100000x128_S128x128_S100000x128_1_0_0_1_n_n none
          (Host.divf ns (broadcastInDim S100000x128 ![0, 1] bcast_S100000x1_S100000x128_0_1 dg)) wne))
        (broadcastInDim S100000x128 ![0, 1] bcast_S1x128_S100000x128_0_1 b))
      (broadcastInDim S100000x128 ![] bcast_S_S100000x128 (constant (F := Ideal) S_ .f32 0x00000000#32))
      = sage h ns dg wse wne b := by
  funext i
  obtain ⟨p, q, rfl⟩ : ∃ (p : Fin 100000) (q : Fin 128), i = ix2 p q := ⟨i 0, i 1, eq_ix2 i⟩
  show max ((Host.dotGeneral (F := Ideal) dot_S100000x128_S128x128_S100000x128_1_0_0_1_n_n none h wse (ix2 p q)
        + Host.dotGeneral (F := Ideal) dot_S100000x128_S128x128_S100000x128_1_0_0_1_n_n none
            (Host.divf ns (broadcastInDim S100000x128 ![0, 1] bcast_S100000x1_S100000x128_0_1 dg)) wne (ix2 p q))
      + broadcastInDim S100000x128 ![0, 1] bcast_S1x128_S100000x128_0_1 b (ix2 p q))
      (broadcastInDim S100000x128 ![] bcast_S_S100000x128 (constant (F := Ideal) S_ .f32 0x00000000#32) (ix2 p q))
    = sageAt h ns dg wse wne b p q
  rw [sageDot_apply, sageDot_apply, biasRow_apply, zero_apply]
  unfold sageAt
  refine congrArg (fun s => max ((_ + s) + _) _) (Finset.sum_congr rfl fun k _ => ?_)
  show Ideal.div (ns (ix2 p k)) (broadcastInDim S100000x128 ![0, 1] bcast_S100000x1_S100000x128_0_1 dg (ix2 p k)) * _ = _
  rw [degCol_apply]

/-- A 128-vector broadcast into a 1×128 row is the vector reshaped to 1×128: both read the vector at the
    column. -/
theorem row_of_vec (v : FVec Ideal S128 .f32) (hs : S128.ShapeCasts S1x128) :
    broadcastInDim S1x128 ![1] bcast_S128_S1x128_1 v = shapeCast S1x128 v hs := by
  funext j
  rw [shapeCast_addUnit_apply ![128] v hs j]
  exact broadcastInDim_apply _ bcast_S128_S1x128_1 v j (fun a => j a.succ) (fun a => match a with
    | ⟨0, _⟩ => by show (j 1).val = if (128 : Nat) = 1 then 0 else (j 1).val; rw [if_neg (by decide)])

end Cert.ReferenceIdeal.Layers

end
-- ==== Proof.RefStages.lean ====
/-
  The reference's run, layer by layer.

  Each layer of the reference — its stage after the encoder's tanh and after each relu — is the
  specification's entry-by-entry function of the previous layer, of that layer's neighbour sums, of the
  clamped degree column, of the layer's two weight matrices and of its bias row.  The degree column is
  recomputed per layer from the destination indices alone, so the three columns are one; a bias vector
  broadcast into a 1×128 row is the vector reshaped to 1×128.
-/
import proofs.«152019_j66434554135156_2_alg».proof.Proof.Gen.ReferenceIdeal.Read
import proofs.«152019_j66434554135156_2_alg».proof.Proof.RefLayers
import proofs.«152019_j66434554135156_2_alg».proof.Proof.Spec

set_option maxRecDepth 16384

noncomputable section

namespace Cert.ReferenceIdeal.Stages

open Cert.ReferenceIdeal Cert.ReferenceIdeal.Facts₀ Cert.ReferenceIdeal.Read Cert.ReferenceIdeal.Layers Cert.SageSpec
open Idealize.ShloMosaic

variable (x0 : (⟨S100000x117, .f32⟩ : BufTy).Contents (Elt Ideal)) (x1 x2 : (⟨S1600000, .i32⟩ : BufTy).Contents (Elt Ideal))
  (x3 : (⟨S117x128, .f32⟩ : BufTy).Contents (Elt Ideal)) (x4 : (⟨S128, .f32⟩ : BufTy).Contents (Elt Ideal))
  (x5 x6 : (⟨S3x128x128, .f32⟩ : BufTy).Contents (Elt Ideal)) (x7 : (⟨S3x128, .f32⟩ : BufTy).Contents (Elt Ideal))

/-- The encoder's stage. -/
theorem enc_stage : val_main_v4 (F := Ideal) x0 x3 x4 = enc x0 x3 (val_main_v1 (F := Ideal) x4) := by
  unfold val_main_v4 val_main_v3 val_main_v0 val_main_v2
  exact hostEnc_eq _ _ _

/-- The first layer's stage. -/
theorem layer1_stage : val_main_v36 (F := Ideal) x0 x1 x2 x3 x4 x5 x6 x7
    = sage (val_main_v4 (F := Ideal) x0 x3 x4) (val_main_v20 (F := Ideal) x0 x1 x2 x3 x4) (val_main_v27 (F := Ideal) x2) (val_main_v6 (F := Ideal) x5) (val_main_v8 (F := Ideal) x6) (val_main_v33 (F := Ideal) x7) := by
  unfold val_main_v36 val_main_v35 val_main_v32 val_main_v30 val_main_v31 val_main_v29 val_main_v28 val_main_v34
    val_main_call0_v0 val_main_call0_cst
  exact hostLayer_eq _ _ _ _ _ _

/-- The second layer's stage. -/
theorem layer2_stage : val_main_v68 (F := Ideal) x0 x1 x2 x3 x4 x5 x6 x7
    = sage (val_main_v36 (F := Ideal) x0 x1 x2 x3 x4 x5 x6 x7) (val_main_v52 (F := Ideal) x0 x1 x2 x3 x4 x5 x6 x7) (val_main_v59 (F := Ideal) x2) (val_main_v38 (F := Ideal) x5) (val_main_v40 (F := Ideal) x6) (val_main_v65 (F := Ideal) x7) := by
  unfold val_main_v68 val_main_v67 val_main_v64 val_main_v62 val_main_v63 val_main_v61 val_main_v60 val_main_v66
    val_main_call1_v0 val_main_call1_cst
  exact hostLayer_eq _ _ _ _ _ _

/-- The third layer's stage: the program's result. -/
theorem layer3_stage : val_main_v100 (F := Ideal) x0 x1 x2 x3 x4 x5 x6 x7
    = sage (val_main_v68 (F := Ideal) x0 x1 x2 x3 x4 x5 x6 x7) (val_main_v84 (F := Ideal) x0 x1 x2 x3 x4 x5 x6 x7) (val_main_v91 (F := Ideal) x2) (val_main_v70 (F := Ideal) x5) (val_main_v72 (F := Ideal) x6) (val_main_v97 (F := Ideal) x7) := by
  unfold val_main_v100 val_main_v99 val_main_v96 val_main_v94 val_main_v95 val_main_v93 val_main_v92 val_main_v98
    val_main_call2_v0 val_main_call2_cst
  exact hostLayer_eq _ _ _ _ _ _

/-- The encoder's bias row is the bias vector reshaped to 1×128. -/
theorem row_v1 (hs : S128.ShapeCasts S1x128) : val_main_v1 (F := Ideal) x4 = shapeCast S1x128 x4 hs := by
  unfold val_main_v1
  exact row_of_vec _ hs

/-- Each layer's bias row is its bias vector reshaped to 1×128. -/
theorem row_v33 (hs : S128.ShapeCasts S1x128) : val_main_v33 (F := Ideal) x7 = shapeCast S1x128 (val_main_v10 (F := Ideal) x7) hs := by
  unfold val_main_v33
  exact row_of_vec _ hs
theorem row_v65 (hs : S128.ShapeCasts S1x128) : val_main_v65 (F := Ideal) x7 = shapeCast S1x128 (val_main_v42 (F := Ideal) x7) hs := by
  unfold val_main_v65
  exact row_of_vec _ hs
theorem row_v97 (hs : S128.ShapeCasts S1x128) : val_main_v97 (F := Ideal) x7 = shapeCast S1x128 (val_main_v74 (F := Ideal) x7) hs := by
  unfold val_main_v97
  exact row_of_vec _ hs

/-- The degree column recomputed by the second and third layers is the first layer's. -/
theorem deg_v59 : val_main_v59 (F := Ideal) x2 = val_main_v27 (F := Ideal) x2 := rfl
theorem deg_v91 : val_main_v91 (F := Ideal) x2 = val_main_v27 (F := Ideal) x2 := rfl

end Cert.ReferenceIdeal.Stages

end
-- ==== Proof.KernelChain.lean ====
/-
  The idealized kernel's buffers at each boundary of @main, as functions of the launch arrays.

  @main alternates stretches of host operations with the four regions.  Walking the boundaries in order:
  the encoder region leaves h₀ = tanh (x · W_in + b_in); each host stretch computes from the current h the
  neighbour sums (a gather of h's rows by the source indices — through a change of float format and back,
  the identity on extended reals — scatter-added by the destination indices), keeps the clamped degree
  column computed once, and slices the layer's weights and bias; each aggregation region then leaves the
  next h.  Every one of these values is the reference's own stage of the same name applied to the launch
  arrays: the host operations are the same terms, the regions' outputs are the specification's layers
  (by the regions' value lemmas on the kernel's side and the stage lemmas on the reference's).
-/
import proofs.«152019_j66434554135156_2_alg».proof.Proof.Gen.KernelIdeal.Frame
import proofs.«152019_j66434554135156_2_alg».proof.Proof.KernelRegion0
import proofs.«152019_j66434554135156_2_alg».proof.Proof.KernelRegion1
import proofs.«152019_j66434554135156_2_alg».proof.Proof.KernelRegion2
import proofs.«152019_j66434554135156_2_alg».proof.Proof.KernelRegion3
import proofs.«152019_j66434554135156_2_alg».proof.Proof.RefStages
import Idealize.ShloMosaic.Lib.StableHlo.Run
import Idealize.ShloMosaic.PureOps.Ideal

set_option maxRecDepth 16384

noncomputable section

namespace Cert.KernelIdeal.Chain

open Cert.KernelIdeal Cert.KernelIdeal.Gen Cert.SageSpec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Before the encoder: the bias reshaped to a row -/

theorem W1_arg0 : W1 m ρ c (Proc.devRef .tc main_arg0) = (m ((c : Thread nD τ).loc main_arg0)) := by
  show StableHlo.after hostOps0 (W0 m ρ c) (Proc.devRef .tc main_arg0) = _
  after_results <;> try rfl
theorem W1_arg1 : W1 m ρ c (Proc.devRef .tc main_arg1) = (m ((c : Thread nD τ).loc main_arg1)) := by
  show StableHlo.after hostOps0 (W0 m ρ c) (Proc.devRef .tc main_arg1) = _
  after_results <;> try rfl
theorem W1_arg2 : W1 m ρ c (Proc.devRef .tc main_arg2) = (m ((c : Thread nD τ).loc main_arg2)) := by
  show StableHlo.after hostOps0 (W0 m ρ c) (Proc.devRef .tc main_arg2) = _
  after_results <;> try rfl
theorem W1_arg3 : W1 m ρ c (Proc.devRef .tc main_arg3) = (m ((c : Thread nD τ).loc main_arg3)) := by
  show StableHlo.after hostOps0 (W0 m ρ c) (Proc.devRef .tc main_arg3) = _
  after_results <;> try rfl
theorem W1_arg4 : W1 m ρ c (Proc.devRef .tc main_arg4) = (m ((c : Thread nD τ).loc main_arg4)) := by
  show StableHlo.after hostOps0 (W0 m ρ c) (Proc.devRef .tc main_arg4) = _
  after_results <;> try rfl
theorem W1_arg5 : W1 m ρ c (Proc.devRef .tc main_arg5) = (m ((c : Thread nD τ).loc main_arg5)) := by
  show StableHlo.after hostOps0 (W0 m ρ c) (Proc.devRef .tc main_arg5) = _
  after_results <;> try rfl
theorem W1_arg6 : W1 m ρ c (Proc.devRef .tc main_arg6) = (m ((c : Thread nD τ).loc main_arg6)) := by
  show StableHlo.after hostOps0 (W0 m ρ c) (Proc.devRef .tc main_arg6) = _
  after_results <;> try rfl
theorem W1_arg7 : W1 m ρ c (Proc.devRef .tc main_arg7) = (m ((c : Thread nD τ).loc main_arg7)) := by
  show StableHlo.after hostOps0 (W0 m ρ c) (Proc.devRef .tc main_arg7) = _
  after_results <;> try rfl
theorem W1_v0 : W1 m ρ c (Proc.devRef .tc main_v0) = shapeCast S1x128 (m ((c : Thread nD τ).loc main_arg4)) shapeCasts_S128_S1x128 := by
  show StableHlo.after hostOps0 (W0 m ρ c) (Proc.devRef .tc main_v0) = _
  after_results <;> try rfl

/-! ## After the encoder -/

theorem W2_v1 : W2 m ρ c (Proc.devRef .tc main_v1) = Cert.ReferenceIdeal.Read.val_main_v4 (F := Ideal) (m ((c : Thread nD τ).loc main_arg0)) (m ((c : Thread nD τ).loc main_arg3)) (m ((c : Thread nD τ).loc main_arg4)) := by
  refine (W2_arr m ρ c 3).trans ((Cert.KernelIdeal.Region0.final0 (V1 m ρ) c).trans ?_)
  have e0 : V1 m ρ c main_arg0 = (m ((c : Thread nD τ).loc main_arg0)) := W1_arg0 m ρ c
  have e3 : V1 m ρ c main_arg3 = (m ((c : Thread nD τ).loc main_arg3)) := W1_arg3 m ρ c
  have ev : V1 m ρ c main_v0 = shapeCast S1x128 (m ((c : Thread nD τ).loc main_arg4)) shapeCasts_S128_S1x128 := W1_v0 m ρ c
  rw [e0, e3, ev]
  exact ((Cert.ReferenceIdeal.Stages.enc_stage (m ((c : Thread nD τ).loc main_arg0)) (m ((c : Thread nD τ).loc main_arg3)) (m ((c : Thread nD τ).loc main_arg4))).trans (congrArg (enc (m ((c : Thread nD τ).loc main_arg0)) (m ((c : Thread nD τ).loc main_arg3))) (Cert.ReferenceIdeal.Stages.row_v1 (m ((c : Thread nD τ).loc main_arg4)) shapeCasts_S128_S1x128))).symm

theorem W2_arg1 : W2 m ρ c (Proc.devRef .tc main_arg1) = (m ((c : Thread nD τ).loc main_arg1)) :=
  (W2_of_ne m ρ c main_arg1 (by decide)).trans (W1_arg1 m ρ c)
theorem W2_arg2 : W2 m ρ c (Proc.devRef .tc main_arg2) = (m ((c : Thread nD τ).loc main_arg2)) :=
  (W2_of_ne m ρ c main_arg2 (by decide)).trans (W1_arg2 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

/-! ## Layer 1: the host stretch, then the region -/

set_option maxHeartbeats 4000000 in
theorem W3_v1 : W3 m ρ c (Proc.devRef .tc main_v1) = Cert.ReferenceIdeal.Read.val_main_v4 (F := Ideal) (m ((c : Thread nD τ).loc main_arg0)) (m ((c : Thread nD τ).loc main_arg3)) (m ((c : Thread nD τ).loc main_arg4)) := by
  show StableHlo.after hostOps1 (W2 m ρ c) (Proc.devRef .tc main_v1) = _
  after_results_simp
  exact W2_v1 m ρ c
set_option maxHeartbeats 4000000 in
theorem W3_v20 : W3 m ρ c (Proc.devRef .tc main_v20) = Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v20) = _
  after_results_simp
  rw [W2_v1 m ρ c, W2_arg1 m ρ c, W2_arg2 m ρ c]
  rfl
set_option maxHeartbeats 4000000 in
theorem W3_v8 : W3 m ρ c (Proc.devRef .tc main_v8) = Cert.ReferenceIdeal.Read.val_main_v27 (F := Ideal) (m ((c : Thread nD τ).loc main_arg2)) := by
  show StableHlo.after hostOps1 (W2 m ρ c) (Proc.devRef .tc main_v8) = _
  after_results_simp
  rw [W2_arg2 m ρ c]
  rfl
set_option maxHeartbeats 4000000 in
theorem W3_v22 : W3 m ρ c (Proc.devRef .tc main_v22) = Cert.ReferenceIdeal.Read.val_main_v6 (F := Ideal) (m ((c : Thread nD τ).loc main_arg5)) := by
  show StableHlo.after hostOps1 (W2 m ρ c) (Proc.devRef .tc main_v22) = _
  after_results_simp
  rw [W2_arg5 m ρ c]
  rfl
set_option maxHeartbeats 4000000 in
theorem W3_v24 : W3 m ρ c (Proc.devRef .tc main_v24) = Cert.ReferenceIdeal.Read.val_main_v8 (F := Ideal) (m ((c : Thread nD τ).loc main_arg6)) := by
  show StableHlo.after hostOps1 (W2 m ρ c) (Proc.devRef .tc main_v24) = _
  after_results_simp
  rw [W2_arg6 m ρ c]
  rfl
set_option maxHeartbeats 4000000 in
theorem W3_v27 : W3 m ρ c (Proc.devRef .tc main_v27) = Cert.ReferenceIdeal.Read.val_main_v33 (F := Ideal) (m ((c : Thread nD τ).loc main_arg7)) := by
  show StableHlo.after hostOps1 (W2 m ρ c) (Proc.devRef .tc main_v27) = _
  after_results_simp
  rw [W2_arg7 m ρ c]
  exact (Cert.ReferenceIdeal.Stages.row_v33 (m ((c : Thread nD τ).loc main_arg7)) shapeCasts_S128_S1x128).symm
set_option maxHeartbeats 4000000 in
theorem W3_arg1 : W3 m ρ c (Proc.devRef .tc main_arg1) = (m ((c : Thread nD τ).loc main_arg1)) := by
  show StableHlo.after hostOps1 (W2 m ρ c) (Proc.devRef .tc main_arg1) = _
  after_results_simp
  exact W2_arg1 m ρ c
set_option maxHeartbeats 4000000 in
theorem W3_arg2 : W3 m ρ c (Proc.devRef .tc main_arg2) = (m ((c : Thread nD τ).loc main_arg2)) := by
  show StableHlo.after hostOps1 (W2 m ρ c) (Proc.devRef .tc main_arg2) = _
  after_results_simp
  exact W2_arg2 m ρ c
set_option maxHeartbeats 4000000 in
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c
set_option maxHeartbeats 4000000 in
theorem W3_arg6 : W3 m ρ c (Proc.devRef .tc main_arg6) = (m ((c : Thread nD τ).loc main_arg6)) := by
  show StableHlo.after hostOps1 (W2 m ρ c) (Proc.devRef .tc main_arg6) = _
  after_results_simp
  exact W2_arg6 m ρ c
set_option maxHeartbeats 4000000 in
theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c

theorem W4_v28 : W4 m ρ c (Proc.devRef .tc main_v28) = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((Cert.KernelIdeal.Region1.final1 (V3 m ρ) c).trans ?_)
  have e0 : V3 m ρ c main_v1 = Cert.ReferenceIdeal.Read.val_main_v4 (F := Ideal) (m ((c : Thread nD τ).loc main_arg0)) (m ((c : Thread nD τ).loc main_arg3)) (m ((c : Thread nD τ).loc main_arg4)) := W3_v1 m ρ c
  have e1 : V3 m ρ c main_v20 = Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := W3_v20 m ρ c
  have e2 : V3 m ρ c main_v8 = Cert.ReferenceIdeal.Read.val_main_v27 (F := Ideal) (m ((c : Thread nD τ).loc main_arg2)) := W3_v8 m ρ c
  have e3 : V3 m ρ c main_v22 = Cert.ReferenceIdeal.Read.val_main_v6 (F := Ideal) (m ((c : Thread nD τ).loc main_arg5)) := W3_v22 m ρ c
  have e4 : V3 m ρ c main_v24 = Cert.ReferenceIdeal.Read.val_main_v8 (F := Ideal) (m ((c : Thread nD τ).loc main_arg6)) := W3_v24 m ρ c
  have e5 : V3 m ρ c main_v27 = Cert.ReferenceIdeal.Read.val_main_v33 (F := Ideal) (m ((c : Thread nD τ).loc main_arg7)) := W3_v27 m ρ c
  rw [e0, e1, e2, e3, e4, e5]
  exact (Cert.ReferenceIdeal.Stages.layer1_stage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm
theorem W4_v8 : W4 m ρ c (Proc.devRef .tc main_v8) = Cert.ReferenceIdeal.Read.val_main_v27 (F := Ideal) (m ((c : Thread nD τ).loc main_arg2)) :=
  (W4_arr m ρ c 2).trans (((dat1 (V3 m ρ) c).arrAt_in 2 rfl _).trans ((A_eq1 (V3 m ρ) c 2).trans (W3_v8 m ρ c)))
theorem W4_arg1 : W4 m ρ c (Proc.devRef .tc main_arg1) = (m ((c : Thread nD τ).loc main_arg1)) :=
  (W4_of_ne m ρ c main_arg1 (by decide)).trans (W3_arg1 m ρ c)
theorem W4_arg2 : W4 m ρ c (Proc.devRef .tc main_arg2) = (m ((c : Thread nD τ).loc main_arg2)) :=
  (W4_of_ne m ρ c main_arg2 (by decide)).trans (W3_arg2 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)

/-! ## Layer 2: the host stretch, then the region -/

set_option maxHeartbeats 4000000 in
theorem W5_v28 : W5 m ρ c (Proc.devRef .tc main_v28) = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v28) = _
  after_results_simp
  exact W4_v28 m ρ c
set_option maxHeartbeats 4000000 in
theorem W5_v40 : W5 m ρ c (Proc.devRef .tc main_v40) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v40) = _
  after_results_simp
  rw [W4_v28 m ρ c, W4_arg1 m ρ c, W4_arg2 m ρ c]
  rfl
set_option maxHeartbeats 4000000 in
theorem W5_v8 : W5 m ρ c (Proc.devRef .tc main_v8) = Cert.ReferenceIdeal.Read.val_main_v27 (F := Ideal) (m ((c : Thread nD τ).loc main_arg2)) := by
  show StableHlo.after hostOps2 (W4 m ρ c) (Proc.devRef .tc main_v8) = _
  after_results_simp
  exact W4_v8 m ρ c
set_option maxHeartbeats 4000000 in
theorem W5_v42 : W5 m ρ c (Proc.devRef .tc main_v42) = Cert.ReferenceIdeal.Read.val_main_v38 (F := Ideal) (m ((c : Thread nD τ).loc main_arg5)) := by
  show StableHlo.after hostOps2 (W4 m ρ c) (Proc.devRef .tc main_v42) = _
  after_results_simp
  rw [W4_arg5 m ρ c]
  rfl
set_option maxHeartbeats 4000000 in
theorem W5_v44 : W5 m ρ c (Proc.devRef .tc main_v44) = Cert.ReferenceIdeal.Read.val_main_v40 (F := Ideal) (m ((c : Thread nD τ).loc main_arg6)) := by
  show StableHlo.after hostOps2 (W4 m ρ c) (Proc.devRef .tc main_v44) = _
  after_results_simp
  rw [W4_arg6 m ρ c]
  rfl
set_option maxHeartbeats 4000000 in
theorem W5_v47 : W5 m ρ c (Proc.devRef .tc main_v47) = Cert.ReferenceIdeal.Read.val_main_v65 (F := Ideal) (m ((c : Thread nD τ).loc main_arg7)) := by
  show StableHlo.after hostOps2 (W4 m ρ c) (Proc.devRef .tc main_v47) = _
  after_results_simp
  rw [W4_arg7 m ρ c]
  exact (Cert.ReferenceIdeal.Stages.row_v65 (m ((c : Thread nD τ).loc main_arg7)) shapeCasts_S128_S1x128).symm
set_option maxHeartbeats 4000000 in
theorem W5_arg1 : W5 m ρ c (Proc.devRef .tc main_arg1) = (m ((c : Thread nD τ).loc main_arg1)) := by
  show StableHlo.after hostOps2 (W4 m ρ c) (Proc.devRef .tc main_arg1) = _
  after_results_simp
  exact W4_arg1 m ρ c
set_option maxHeartbeats 4000000 in
theorem W5_arg2 : W5 m ρ c (Proc.devRef .tc main_arg2) = (m ((c : Thread nD τ).loc main_arg2)) := by
  show StableHlo.after hostOps2 (W4 m ρ c) (Proc.devRef .tc main_arg2) = _
  after_results_simp
  exact W4_arg2 m ρ c
set_option maxHeartbeats 4000000 in
theorem W5_arg5 : W5 m ρ c (Proc.devRef .tc main_arg5) = (m ((c : Thread nD τ).loc main_arg5)) := by
  show StableHlo.after hostOps2 (W4 m ρ c) (Proc.devRef .tc main_arg5) = _
  after_results_simp
  exact W4_arg5 m ρ c
set_option maxHeartbeats 4000000 in
theorem W5_arg6 : W5 m ρ c (Proc.devRef .tc main_arg6) = (m ((c : Thread nD τ).loc main_arg6)) := by
  show StableHlo.after hostOps2 (W4 m ρ c) (Proc.devRef .tc main_arg6) = _
  after_results_simp
  exact W4_arg6 m ρ c
set_option maxHeartbeats 4000000 in
theorem W5_arg7 : W5 m ρ c (Proc.devRef .tc main_arg7) = (m ((c : Thread nD τ).loc main_arg7)) := by
  show StableHlo.after hostOps2 (W4 m ρ c) (Proc.devRef .tc main_arg7) = _
  after_results_simp
  exact W4_arg7 m ρ c

theorem W6_v48 : W6 m ρ c (Proc.devRef .tc main_v48) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 6).trans ((Cert.KernelIdeal.Region2.final2 (V5 m ρ) c).trans ?_)
  have e0 : V5 m ρ c main_v28 = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W5_v28 m ρ c
  have e1 : V5 m ρ c main_v40 = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W5_v40 m ρ c
  have e2 : V5 m ρ c main_v8 = Cert.ReferenceIdeal.Read.val_main_v27 (F := Ideal) (m ((c : Thread nD τ).loc main_arg2)) := W5_v8 m ρ c
  have e3 : V5 m ρ c main_v42 = Cert.ReferenceIdeal.Read.val_main_v38 (F := Ideal) (m ((c : Thread nD τ).loc main_arg5)) := W5_v42 m ρ c
  have e4 : V5 m ρ c main_v44 = Cert.ReferenceIdeal.Read.val_main_v40 (F := Ideal) (m ((c : Thread nD τ).loc main_arg6)) := W5_v44 m ρ c
  have e5 : V5 m ρ c main_v47 = Cert.ReferenceIdeal.Read.val_main_v65 (F := Ideal) (m ((c : Thread nD τ).loc main_arg7)) := W5_v47 m ρ c
  rw [e0, e1, e2, e3, e4, e5]
  exact (Cert.ReferenceIdeal.Stages.layer2_stage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm
theorem W6_v8 : W6 m ρ c (Proc.devRef .tc main_v8) = Cert.ReferenceIdeal.Read.val_main_v27 (F := Ideal) (m ((c : Thread nD τ).loc main_arg2)) :=
  (W6_arr m ρ c 2).trans (((dat2 (V5 m ρ) c).arrAt_in 2 rfl _).trans ((A_eq2 (V5 m ρ) c 2).trans (W5_v8 m ρ c)))
theorem W6_arg1 : W6 m ρ c (Proc.devRef .tc main_arg1) = (m ((c : Thread nD τ).loc main_arg1)) :=
  (W6_of_ne m ρ c main_arg1 (by decide)).trans (W5_arg1 m ρ c)
theorem W6_arg2 : W6 m ρ c (Proc.devRef .tc main_arg2) = (m ((c : Thread nD τ).loc main_arg2)) :=
  (W6_of_ne m ρ c main_arg2 (by decide)).trans (W5_arg2 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)

/-! ## Layer 3: the host stretch, then the region -/

set_option maxHeartbeats 4000000 in
theorem W7_v48 : W7 m ρ c (Proc.devRef .tc main_v48) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v48) = _
  after_results_simp
  exact W6_v48 m ρ c
set_option maxHeartbeats 4000000 in
theorem W7_v60 : W7 m ρ c (Proc.devRef .tc main_v60) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v60) = _
  after_results_simp
  rw [W6_v48 m ρ c, W6_arg1 m ρ c, W6_arg2 m ρ c]
  rfl
set_option maxHeartbeats 4000000 in
theorem W7_v8 : W7 m ρ c (Proc.devRef .tc main_v8) = Cert.ReferenceIdeal.Read.val_main_v27 (F := Ideal) (m ((c : Thread nD τ).loc main_arg2)) := by
  show StableHlo.after hostOps3 (W6 m ρ c) (Proc.devRef .tc main_v8) = _
  after_results_simp
  exact W6_v8 m ρ c
set_option maxHeartbeats 4000000 in
theorem W7_v62 : W7 m ρ c (Proc.devRef .tc main_v62) = Cert.ReferenceIdeal.Read.val_main_v70 (F := Ideal) (m ((c : Thread nD τ).loc main_arg5)) := by
  show StableHlo.after hostOps3 (W6 m ρ c) (Proc.devRef .tc main_v62) = _
  after_results_simp
  rw [W6_arg5 m ρ c]
  rfl
set_option maxHeartbeats 4000000 in
theorem W7_v64 : W7 m ρ c (Proc.devRef .tc main_v64) = Cert.ReferenceIdeal.Read.val_main_v72 (F := Ideal) (m ((c : Thread nD τ).loc main_arg6)) := by
  show StableHlo.after hostOps3 (W6 m ρ c) (Proc.devRef .tc main_v64) = _
  after_results_simp
  rw [W6_arg6 m ρ c]
  rfl
set_option maxHeartbeats 4000000 in
theorem W7_v67 : W7 m ρ c (Proc.devRef .tc main_v67) = Cert.ReferenceIdeal.Read.val_main_v97 (F := Ideal) (m ((c : Thread nD τ).loc main_arg7)) := by
  show StableHlo.after hostOps3 (W6 m ρ c) (Proc.devRef .tc main_v67) = _
  after_results_simp
  rw [W6_arg7 m ρ c]
  exact (Cert.ReferenceIdeal.Stages.row_v97 (m ((c : Thread nD τ).loc main_arg7)) shapeCasts_S128_S1x128).symm
set_option maxHeartbeats 4000000 in
theorem W7_arg1 : W7 m ρ c (Proc.devRef .tc main_arg1) = (m ((c : Thread nD τ).loc main_arg1)) := by
  show StableHlo.after hostOps3 (W6 m ρ c) (Proc.devRef .tc main_arg1) = _
  after_results_simp
  exact W6_arg1 m ρ c
set_option maxHeartbeats 4000000 in
theorem W7_arg2 : W7 m ρ c (Proc.devRef .tc main_arg2) = (m ((c : Thread nD τ).loc main_arg2)) := by
  show StableHlo.after hostOps3 (W6 m ρ c) (Proc.devRef .tc main_arg2) = _
  after_results_simp
  exact W6_arg2 m ρ c
set_option maxHeartbeats 4000000 in
theorem W7_arg5 : W7 m ρ c (Proc.devRef .tc main_arg5) = (m ((c : Thread nD τ).loc main_arg5)) := by
  show StableHlo.after hostOps3 (W6 m ρ c) (Proc.devRef .tc main_arg5) = _
  after_results_simp
  exact W6_arg5 m ρ c
set_option maxHeartbeats 4000000 in
theorem W7_arg6 : W7 m ρ c (Proc.devRef .tc main_arg6) = (m ((c : Thread nD τ).loc main_arg6)) := by
  show StableHlo.after hostOps3 (W6 m ρ c) (Proc.devRef .tc main_arg6) = _
  after_results_simp
  exact W6_arg6 m ρ c
set_option maxHeartbeats 4000000 in
theorem W7_arg7 : W7 m ρ c (Proc.devRef .tc main_arg7) = (m ((c : Thread nD τ).loc main_arg7)) := by
  show StableHlo.after hostOps3 (W6 m ρ c) (Proc.devRef .tc main_arg7) = _
  after_results_simp
  exact W6_arg7 m ρ c

theorem W8_v68 : W8 m ρ c (Proc.devRef .tc main_v68) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 6).trans ((Cert.KernelIdeal.Region3.final3 (V7 m ρ) c).trans ?_)
  have e0 : V7 m ρ c main_v48 = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W7_v48 m ρ c
  have e1 : V7 m ρ c main_v60 = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W7_v60 m ρ c
  have e2 : V7 m ρ c main_v8 = Cert.ReferenceIdeal.Read.val_main_v27 (F := Ideal) (m ((c : Thread nD τ).loc main_arg2)) := W7_v8 m ρ c
  have e3 : V7 m ρ c main_v62 = Cert.ReferenceIdeal.Read.val_main_v70 (F := Ideal) (m ((c : Thread nD τ).loc main_arg5)) := W7_v62 m ρ c
  have e4 : V7 m ρ c main_v64 = Cert.ReferenceIdeal.Read.val_main_v72 (F := Ideal) (m ((c : Thread nD τ).loc main_arg6)) := W7_v64 m ρ c
  have e5 : V7 m ρ c main_v67 = Cert.ReferenceIdeal.Read.val_main_v97 (F := Ideal) (m ((c : Thread nD τ).loc main_arg7)) := W7_v67 m ρ c
  rw [e0, e1, e2, e3, e4, e5]
  exact (Cert.ReferenceIdeal.Stages.layer3_stage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm
theorem W8_v8 : W8 m ρ c (Proc.devRef .tc main_v8) = Cert.ReferenceIdeal.Read.val_main_v27 (F := Ideal) (m ((c : Thread nD τ).loc main_arg2)) :=
  (W8_arr m ρ c 2).trans (((dat3 (V7 m ρ) c).arrAt_in 2 rfl _).trans ((A_eq3 (V7 m ρ) c 2).trans (W7_v8 m ρ c)))
theorem W8_arg1 : W8 m ρ c (Proc.devRef .tc main_arg1) = (m ((c : Thread nD τ).loc main_arg1)) :=
  (W8_of_ne m ρ c main_arg1 (by decide)).trans (W7_arg1 m ρ c)
theorem W8_arg2 : W8 m ρ c (Proc.devRef .tc main_arg2) = (m ((c : Thread nD τ).loc main_arg2)) :=
  (W8_of_ne m ρ c main_arg2 (by decide)).trans (W7_arg2 m ρ c)
theorem W8_arg5 : W8 m ρ c (Proc.devRef .tc main_arg5) = (m ((c : Thread nD τ).loc main_arg5)) :=
  (W8_of_ne m ρ c main_arg5 (by decide)).trans (W7_arg5 m ρ c)
theorem W8_arg6 : W8 m ρ c (Proc.devRef .tc main_arg6) = (m ((c : Thread nD τ).loc main_arg6)) :=
  (W8_of_ne m ρ c main_arg6 (by decide)).trans (W7_arg6 m ρ c)
theorem W8_arg7 : W8 m ρ c (Proc.devRef .tc main_arg7) = (m ((c : Thread nD τ).loc main_arg7)) :=
  (W8_of_ne m ρ c main_arg7 (by decide)).trans (W7_arg7 m ρ c)

/-- The kernel's result buffer ends at the reference's result stage of the launch arrays. -/
theorem result_eq : W8 m ρ c (Proc.devRef .tc main_v68) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W8_v68 m ρ c

end Cert.KernelIdeal.Chain

end
-- ==== Proof.lean ====
/-
  Equivalence over the extended reals of a three-layer mean-aggregation graph network written as four
  pipelined kernels (an encoder and three aggregation layers, each tiled over 20 blocks of 5000 nodes)
  against its array-level reference.

  Both programs compute h₀ = tanh (x · W_in + b_in) and then three times
  h ← max (h · W_self + (S h / max (deg, 1)) · W_neigh + b, 0), where S h sums the rows of h gathered by the
  edges' sources into the edges' destinations and deg counts the edges into each node.  The kernel program
  gathers the rows through a narrower float format and back, which is the identity on extended reals, keeps
  the degree column it computed once where the reference recomputes it, and divides inside the aggregation
  kernel where the reference divides on the host; the sums, products and the division are the same
  operations in the same grouping, so no finiteness of the inputs is used.

  The idealized kernel's run names its result buffer at the last boundary of the fold through @main
  (KernelRun); that buffer is the reference's result stage of the launch arrays (KernelChain, over the
  regions' value lemmas and the reference's stage lemmas); the reference's run and its stages are the
  generated Run and Read modules.  The three frames are the generated frame proofs (the reference's is its
  run with the result dropped), and the idealization rewrote nothing.
-/
import proofs.«152019_j66434554135156_2_alg».proof.Defs
import proofs.«152019_j66434554135156_2_alg».proof.Proof.Gen.Kernel
import proofs.«152019_j66434554135156_2_alg».proof.Proof.Gen.Kernel.Skeleton
import proofs.«152019_j66434554135156_2_alg».proof.Proof.Gen.Kernel.Launch
import proofs.«152019_j66434554135156_2_alg».proof.Proof.Gen.Kernel.Points
import proofs.«152019_j66434554135156_2_alg».proof.Proof.Gen.Kernel.Frame
import proofs.«152019_j66434554135156_2_alg».proof.Proof.Gen.KernelIdeal
import proofs.«152019_j66434554135156_2_alg».proof.Proof.Gen.KernelIdeal.Skeleton
import proofs.«152019_j66434554135156_2_alg».proof.Proof.Gen.KernelIdeal.Launch
import proofs.«152019_j66434554135156_2_alg».proof.Proof.Gen.KernelIdeal.Points
import proofs.«152019_j66434554135156_2_alg».proof.Proof.Gen.KernelIdeal.Frame
import proofs.«152019_j66434554135156_2_alg».proof.Proof.Gen.ReferenceIdeal
import proofs.«152019_j66434554135156_2_alg».proof.Proof.Gen.Pre_finite_inputs
import proofs.«152019_j66434554135156_2_alg».proof.Proof.Gen.ReferenceIdeal.Run
import proofs.«152019_j66434554135156_2_alg».proof.Proof.Gen.ReferenceIdeal.Read
import proofs.«152019_j66434554135156_2_alg».proof.Proof.KernelRun
import proofs.«152019_j66434554135156_2_alg».proof.Proof.KernelChain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's result stage of the (agreeing) argument arrays. -/
theorem algebraic : Cert.algebraic_KernelIdeal_ReferenceIdeal := by
  intro m ρ m' ρ' _ hagree
  refine ⟨fun c => Cert.ReferenceIdeal.Read.val_main_v100 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v100_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
